-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x257x768 : Shape := ⟨3, ![256, 257, 768]⟩
abbrev S768 : Shape := ⟨1, ![768]⟩
abbrev S1x768 : Shape := ⟨2, ![1, 768]⟩
abbrev S1 : Shape := ⟨1, ![1]⟩
abbrev S_ : Shape := ⟨0, ![]⟩

class Facts : Prop where
  bcast_S_S256x257x768 : S_.BroadcastsInDim S256x257x768 (![] : Fin 0 → Fin S256x257x768.rank)
  reducesTo_S256x257x768_S_d0_1_2 : S256x257x768.ReducesTo [0, 1, 2] S_
  h_S_ : 0 < S_.numel
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S256x257x768 .f32) (main_arg1 : FVec F S768 .f32) (main_arg2 : FVec F S768 .f32) (main_arg3 : FVec F S1x768 .f32) (main_arg4 : FVec F S1 .f32) : IVec S_ 1 :=
  let main_v0 : FVec F S256x257x768 .f32 := Host.absf main_arg0
  let main_cst : FVec F S_ .f32 := constant S_ .f32 0x7F800000#32
  let main_v1 : FVec F S256x257x768 .f32 := broadcastInDim S256x257x768 ![] bcast_S_S256x257x768 main_cst
  let main_v2 : IVec S256x257x768 1 := cmpf .olt main_v0 main_v1
  let main_c : IVec S_ 1 := constantI S_ 1 1#1
  let main_v3 : IVec S_ 1 := (fun x v => Host.reduce IntOp.andi x v reducesTo_S256x257x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_v13 main_v16
-- ==== Kernel.lean ====
abbrev S256x257x768 : Shape := ⟨3, ![256, 257, 768]⟩
abbrev S768 : Shape := ⟨1, ![768]⟩
abbrev S1x768 : Shape := ⟨2, ![1, 768]⟩
abbrev S1 : Shape := ⟨1, ![1]⟩
abbrev S256x256x1 : Shape := ⟨3, ![256, 256, 1]⟩
abbrev S8x257x768 : Shape := ⟨3, ![8, 257, 768]⟩
abbrev S8x256x1 : Shape := ⟨3, ![8, 256, 1]⟩
abbrev S8x256x768 : Shape := ⟨3, ![8, 256, 768]⟩
abbrev S8x256 : Shape := ⟨2, ![8, 256]⟩
abbrev S1x1x768 : Shape := ⟨3, ![1, 1, 768]⟩
abbrev S1x1x1 : Shape := ⟨3, ![1, 1, 1]⟩

abbrev nBuf : Space → Nat
  | .hbm => 6
  | .vmem => 8
  | .smem => 0
  | _ => 0

abbrev bufTy : (tb : Table) → Fin (tcTables nBuf tb) → BufTy
  | .hbm, ⟨0, _⟩ => ⟨S256x257x768, .f32⟩
  | .hbm, ⟨1, _⟩ => ⟨S768, .f32⟩
  | .hbm, ⟨2, _⟩ => ⟨S768, .f32⟩
  | .hbm, ⟨3, _⟩ => ⟨S1x768, .f32⟩
  | .hbm, ⟨4, _⟩ => ⟨S1, .f32⟩
  | .hbm, ⟨5, _⟩ => ⟨S256x256x1, .f32⟩
  | .local _ .vmem, ⟨0, _⟩ => ⟨S8x257x768, .f32⟩
  | .local _ .vmem, ⟨1, _⟩ => ⟨S8x257x768, .f32⟩
  | .local _ .vmem, ⟨2, _⟩ => ⟨S768, .f32⟩
  | .local _ .vmem, ⟨3, _⟩ => ⟨S768, .f32⟩
  | .local _ .vmem, ⟨4, _⟩ => ⟨S1x768, .f32⟩
  | .local _ .vmem, ⟨5, _⟩ => ⟨S1, .f32⟩
  | .local _ .vmem, ⟨6, _⟩ => ⟨S8x256x1, .f32⟩
  | .local _ .vmem, ⟨7, _⟩ => ⟨S8x256x1, .f32⟩
  | _, _ => ⟨S256x257x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x257x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x257x768_S8x257x768_0_0_0 : ∀ a, (![0, 0, 0] : Fin 3 → Nat) a + S8x257x768.size a ≤ S8x257x768.size a
  h_S8x257x768 : 0 < S8x257x768.numel
  slices_S8x257x768_o0_1_0_S8x256x768 : S8x257x768.Slices ![0, 1, 0] S8x256x768
  reduces_S8x256x768_S8x256 : S8x256x768.Reduces [2] S8x256
  shapeCasts_S8x256_S8x256x1 : S8x256.ShapeCasts S8x256x1
  broadcasts_S8x256x1_S8x256x768 : S8x256x1.Broadcasts S8x256x768
  inb_S768_S768_0 : ∀ a, (![0] : Fin 1 → Nat) a + S768.size a ≤ S768.size a
  h_S768 : 0 < S768.numel
  shapeCasts_S768_S1x1x768 : S768.ShapeCasts S1x1x768
  broadcasts_S1x1x768_S8x256x768 : S1x1x768.Broadcasts S8x256x768
  inb_S1x768_S1x768_0_0 : ∀ a, (![0, 0] : Fin 2 → Nat) a + S1x768.size a ≤ S1x768.size a
  h_S1x768 : 0 < S1x768.numel
  shapeCasts_S1x768_S768 : S1x768.ShapeCasts S768
  inb_S1_S1_0 : ∀ a, (![0] : Fin 1 → Nat) a + S1.size a ≤ S1.size a
  h_S1 : 0 < S1.numel
  shapeCasts_S1_S1x1x1 : S1.ShapeCasts S1x1x1
  broadcasts_S1x1x1_S8x256x1 : S1x1x1.Broadcasts S8x256x1
  inb_S8x256x1_S8x256x1_0_0_0 : ∀ a, (![0, 0, 0] : Fin 3 → Nat) a + S8x256x1.size a ≤ S8x256x1.size a
  h_S8x256x1 : 0 < S8x256x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x257x768.size a ≤ S256x257x768.size a
  hwx0_0 : ∀ i : grid0.Coords, EltTy.bits .f32 = 32 ∨ (Rect.block (s := S256x257x768) S8x257x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x1.size a ≤ S256x256x1.size a
  hwx0_5 : ∀ i : grid0.Coords, EltTy.bits .f32 = 32 ∨ (Rect.block (s := S256x256x1) S8x256x1.size (cc0_transform_5 i) (hinb0_5 i)).WholeWords (EltTy.packing .f32)

variable [Facts₀]

abbrev win0_0 : Pipeline.Window sig grid0 :=
  Pipeline.Window.ofSpec (Memref.whole main_arg0) S8x257x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x257x768 : Shape := ⟨3, ![256, 257, 768]⟩
abbrev S768 : Shape := ⟨1, ![768]⟩
abbrev S1x768 : Shape := ⟨2, ![1, 768]⟩
abbrev S1 : Shape := ⟨1, ![1]⟩
abbrev S256x256x768 : Shape := ⟨3, ![256, 256, 768]⟩
abbrev S_ : Shape := ⟨0, ![]⟩
abbrev S256x256 : Shape := ⟨2, ![256, 256]⟩
abbrev S256x256x1 : Shape := ⟨3, ![256, 256, 1]⟩
abbrev S1x1x768 : Shape := ⟨3, ![1, 1, 768]⟩
abbrev S1x1x1 : Shape := ⟨3, ![1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S256x257x768, .f32⟩
  | .hbm, ⟨1, _⟩ => ⟨S768, .f32⟩
  | .hbm, ⟨2, _⟩ => ⟨S768, .f32⟩
  | .hbm, ⟨3, _⟩ => ⟨S1x768, .f32⟩
  | .hbm, ⟨4, _⟩ => ⟨S1, .f32⟩
  | .hbm, ⟨5, _⟩ => ⟨S256x256x768, .f32⟩
  | .hbm, ⟨6, _⟩ => ⟨S_, .f32⟩
  | .hbm, ⟨7, _⟩ => ⟨S256x256, .f32⟩
  | .hbm, ⟨8, _⟩ => ⟨S256x256x1, .f32⟩
  | .hbm, ⟨9, _⟩ => ⟨S_, .f32⟩
  | .hbm, ⟨10, _⟩ => ⟨S256x256x1, .f32⟩
  | .hbm, ⟨11, _⟩ => ⟨S256x256x1, .f32⟩
  | .hbm, ⟨12, _⟩ => ⟨S256x256x768, .f32⟩
  | .hbm, ⟨13, _⟩ => ⟨S256x256x768, .f32⟩
  | .hbm, ⟨14, _⟩ => ⟨S256x256x768, .f32⟩
  | .hbm, ⟨15, _⟩ => ⟨S_, .f32⟩
  | .hbm, ⟨16, _⟩ => ⟨S256x256, .f32⟩
  | .hbm, ⟨17, _⟩ => ⟨S256x256x1, .f32⟩
  | .hbm, ⟨18, _⟩ => ⟨S_, .f32⟩
  | .hbm, ⟨19, _⟩ => ⟨S256x256x1, .f32⟩
  | .hbm, ⟨20, _⟩ => ⟨S256x256x1, .f32⟩
  | .hbm, ⟨21, _⟩ => ⟨S256x256x768, .f32⟩
  | .hbm, ⟨22, _⟩ => ⟨S256x256x768, .f32⟩
  | .hbm, ⟨23, _⟩ => ⟨S_, .f32⟩
  | .hbm, ⟨24, _⟩ => ⟨S256x256x1, .f32⟩
  | .hbm, ⟨25, _⟩ => ⟨S256x256x1, .f32⟩
  | .hbm, ⟨26, _⟩ => ⟨S256x256x1, .f32⟩
  | .hbm, ⟨27, _⟩ => ⟨S256x256x768, .f32⟩
  | .hbm, ⟨28, _⟩ => ⟨S256x256x768, .f32⟩
  | .hbm, ⟨29, _⟩ => ⟨S1x1x768, .f32⟩
  | .hbm, ⟨30, _⟩ => ⟨S256x256x768, .f32⟩
  | .hbm, ⟨31, _⟩ => ⟨S256x256x768, .f32⟩
  | .hbm, ⟨32, _⟩ => ⟨S1x1x768, .f32⟩
  | .hbm, ⟨33, _⟩ => ⟨S256x256x768, .f32⟩
  | .hbm, ⟨34, _⟩ => ⟨S256x256x768, .f32⟩
  | .hbm, ⟨35, _⟩ => ⟨S256x256x1, .f32⟩
  | .hbm, ⟨36, _⟩ => ⟨S1x1x1, .f32⟩
  | .hbm, ⟨37, _⟩ => ⟨S256x256x1, .f32⟩
  | .hbm, ⟨38, _⟩ => ⟨S256x256x1, .f32⟩
  | .hbm, ⟨39, _⟩ => ⟨S256x256x1, .f32⟩
  | .hbm, ⟨40, _⟩ => ⟨S256x256x1, .f32⟩
  | .hbm, ⟨41, _⟩ => ⟨S_, .f32⟩
  | .hbm, ⟨42, _⟩ => ⟨S256x256x1, .f32⟩
  | .hbm, ⟨43, _⟩ => ⟨S256x256x1, .f32⟩
  | .hbm, ⟨44, _⟩ => ⟨S_, .f32⟩
  | .hbm, ⟨45, _⟩ => ⟨S256x256x1, .f32⟩
  | .hbm, ⟨46, _⟩ => ⟨S256x256x1, .f32⟩
  | _, _ => ⟨S256x257x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  slices_S256x257x768_S256x256x768_0_1_0 : S256x257x768.Slices ![0, 1, 0] S256x256x768
  reducesTo_S256x256x768_S256x256_d2 : S256x256x768.ReducesTo [2] S256x256
  h_S_ : 0 < S_.numel
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x768_0_1_2 : S256x256x1.BroadcastsInDim S256x256x768 (![0, 1, 2] : Fin 3 → Fin S256x256x768.rank)
  bcast_S768_S1x1x768_2 : S768.BroadcastsInDim S1x1x768 (![2] : Fin 1 → Fin S1x1x768.rank)
  bcast_S1x1x768_S256x256x768_0_1_2 : S1x1x768.BroadcastsInDim S256x256x768 (![0, 1, 2] : Fin 3 → Fin S256x256x768.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  dot_S256x256x768_S1x768_S256x256x1_2_1_01_0_n_n_wf : DotDims.WF S256x256x768 S1x768 S256x256x1 [2] [1] [0, 1] [0] [] []

variable [Facts₀]

def dot_S256x256x768_S1x768_S256x256x1_2_1_01_0_n_n : DotDims S256x256x768 S1x768 S256x256x1 where
  lhsContracting := [2]
  rhsContracting := [1]
  lhsNonContracting := [0, 1]
  rhsNonContracting := [0]
  lhsBatch := []
  rhsBatch := []
  wf := dot_S256x256x768_S1x768_S256x256x1_2_1_01_0_n_n_wf

class Facts : Prop extends Facts₀ where

variable [Facts]
-- ==== Proof.HeadSpec.lean ====
/-
  The mathematics of the classification head, one token row at a time.

  A token row `h : Fin 768 → EReal` (the 768 features of one non-CLS token) is layer-normalized — the mean and the
  variance are sums over the 768 features divided by 768, the scale is the reciprocal square root of the variance
  plus a stabilizer —, scaled and shifted feature by feature by `γ` and `β`, contracted against the one weight row `w`,
  shifted by the bias and put through the logistic function. Everything is over the extended reals with the exact
  operations; no law of arithmetic is used here: this file only names the function both programs compute.
-/
import Idealize.ShloMosaic.PureOps.Ideal
import Idealize.ShloMosaic.PureOps.Ideal.Laws
import Idealize.ShloMosaic.Lib.ValueIdx

noncomputable section

namespace Cert.Head

open Idealize.ShloMosaic Idealize.ShloMosaic.ValueIdx

/-- The number of features, 768, as the f32 value both programs divide the sums by. -/
def width : EReal := Ideal.ofBits .f32 0x44400000#32

/-- The stabilizer added to the variance: the f32 value nearest to 1e-5. -/
def eps : EReal := Ideal.ofBits .f32 0x3727C5AC#32

/-- The mean of a row: the sum of its features over 768. -/
def mean (h : Fin 768 → EReal) : EReal := Ideal.div (∑ k : Fin 768, h k) width

/-- A feature minus the row's mean. -/
def centred (h : Fin 768 → EReal) (k : Fin 768) : EReal := h k - mean h

/-- The (biased) variance of a row: the sum of the squared centred features over 768. -/
def variance (h : Fin 768 → EReal) : EReal := Ideal.div (∑ k : Fin 768, centred h k * centred h k) width

/-- The normalizing scale of a row: the reciprocal square root of the variance plus the stabilizer. -/
def scale (h : Fin 768 → EReal) : EReal := Ideal.rsqrt (variance h + eps)

/-- The layer-normalized feature, scaled by `γ` and shifted by `β`. -/
def normed (h γ β : Fin 768 → EReal) (k : Fin 768) : EReal := centred h k * scale h * γ k + β k

/-- The logit of a row: the normalized features contracted against the weight row, plus the bias. -/
def logit (h γ β w : Fin 768 → EReal) (b : EReal) : EReal := (∑ k : Fin 768, normed h γ β k * w k) + b

/-- The head's output for a row: the logistic function of the logit. -/
def head (h γ β w : Fin 768 → EReal) (b : EReal) : EReal := Ideal.logistic (logit h γ β w b)

/-! ## The whole result array

Token `r` of batch entry `b` in the result is token `r + 1` of the input: the first token (CLS) is dropped. -/

/-- Row `(b, r)` of the tokens kept: the features of token `r + 1` of batch entry `b`. -/
def row {B : Nat} (X : (⟨3, ![B, 257, 768]⟩ : Shape).Idx → EReal) (b : Fin B) (r : Fin 256) : Fin 768 → EReal :=
  fun k => X (ix3 b ⟨r.val + 1, by have := r.isLt; omega⟩ k)

/-- A parameter vector of 768 features as a function of the feature. -/
def feat (v : (⟨1, ![768]⟩ : Shape).Idx → EReal) : Fin 768 → EReal := fun k => v (ix1 k)

/-- The one row of the weight matrix as a function of the feature. -/
def wrow (W : (⟨2, ![1, 768]⟩ : Shape).Idx → EReal) : Fin 768 → EReal := fun k => W (ix2 0 k)

/-- THE RESULT: entry `(b, r, 0)` is the head's output for row `(b, r)`. Stated for any number `B` of batch
    entries: the whole array has 256, a block of the kernel's grid 8. -/
def result {B : Nat} (X : (⟨3, ![B, 257, 768]⟩ : Shape).Idx → EReal) (Γ Β : (⟨1, ![768]⟩ : Shape).Idx → EReal)
    (W : (⟨2, ![1, 768]⟩ : Shape).Idx → EReal) (bias : (⟨1, ![1]⟩ : Shape).Idx → EReal) :
    (⟨3, ![B, 256, 1]⟩ : Shape).Idx → EReal :=
  fun i => head (row X (i 0) (i 1)) (feat Γ) (feat Β) (wrow W) (bias (ix1 0))

/-- An entry of the result depends only on its row of the input and on the parameters: two result arrays — over
    possibly different numbers of batch entries — agree at two indices when the rows read there, the parameter
    vectors, the weight row and the bias agree. (How a block of the kernel's grid is compared with the whole array.) -/
theorem result_congr {B B' : Nat} (X : (⟨3, ![B, 257, 768]⟩ : Shape).Idx → EReal) (X' : (⟨3, ![B', 257, 768]⟩ : Shape).Idx → EReal)
    (Γ Γ' Β Β' : (⟨1, ![768]⟩ : Shape).Idx → EReal) (W W' : (⟨2, ![1, 768]⟩ : Shape).Idx → EReal)
    (bias bias' : (⟨1, ![1]⟩ : Shape).Idx → EReal) (i : (⟨3, ![B, 256, 1]⟩ : Shape).Idx) (i' : (⟨3, ![B', 256, 1]⟩ : Shape).Idx)
    (hX : ∀ k : Fin 768, row X (i 0) (i 1) k = row X' (i' 0) (i' 1) k)
    (hΓ : ∀ k : Fin 768, Γ (ix1 k) = Γ' (ix1 k)) (hΒ : ∀ k : Fin 768, Β (ix1 k) = Β' (ix1 k))
    (hW : ∀ k : Fin 768, W (ix2 0 k) = W' (ix2 0 k)) (hb : bias (ix1 0) = bias' (ix1 0)) :
    result X Γ Β W bias i = result X' Γ' Β' W' bias' i' := by
  show head (row X (i 0) (i 1)) (feat Γ) (feat Β) (wrow W) (bias (ix1 0))
    = head (row X' (i' 0) (i' 1)) (feat Γ') (feat Β') (wrow W') (bias' (ix1 0))
  rw [show row X (i 0) (i 1) = row X' (i' 0) (i' 1) from funext hX, show feat Γ = feat Γ' from funext hΓ,
    show feat Β = feat Β' from funext hΒ, show wrow W = wrow W' from funext hW, hb]

end Cert.Head

end
-- ==== Proof.RefValue.lean ====
/-
  The reference program computes the head, row by row.

  Its forty-two operations are read one stage at a time at an index: the slice drops token 0, the two sums over the
  768 features (each started from the constant zero) give the mean and the variance, the reciprocal square root of the
  variance plus the stabilizer the scale, the contraction against the weight row the logit, and
  `1 / (1 + exp (-logit))` is the logistic function spelt out. The only arithmetic used is `0 + s = s` (the sums'
  initial value) and that the f32 pattern `0x3F800000` denotes the number one.
-/
import proofs.«167712_j18846316495193_1_alg».proof.Proof.Gen.ReferenceIdeal.Read
import proofs.«167712_j18846316495193_1_alg».proof.Proof.HeadSpec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.Head

variable (x0 : (⟨S256x257x768, .f32⟩ : BufTy).Contents (Elt Ideal)) (x1 x2 : (⟨S768, .f32⟩ : BufTy).Contents (Elt Ideal))
  (x3 : (⟨S1x768, .f32⟩ : BufTy).Contents (Elt Ideal)) (x4 : (⟨S1, .f32⟩ : BufTy).Contents (Elt Ideal))

/-- The sliced input at `(b, r, k)` is feature `k` of token `r + 1` of batch entry `b`. -/
theorem v0_at (i : S256x256x768.Idx) : val_main_v0 (F := Ideal) x0 i = row x0 (i 0) (i 1) (i 2) := by
  rw [val_main_v0_apply]
  show x0 (idx_main_v0 i) = x0 (ix3 (i 0) ⟨(i 1).val + 1, _⟩ (i 2))
  refine congrArg x0 (funext fun a => Fin.ext ?_)
  match a with
  | ⟨0, _⟩ => rfl
  | ⟨1, _⟩ => show 1 + (i 1).val = (i 1).val + 1; omega
  | ⟨2, _⟩ => rfl

/-- The first quotient is the row's mean. -/
theorem v4_at (i : S256x256x1.Idx) : val_main_v4 (F := Ideal) x0 i = mean (row x0 (i 0) (i 1)) := by
  rw [val_main_v4_apply, val_main_v2_apply, val_main_v1_apply, val_main_v3_apply, val_main_cst_0_apply, val_main_cst_apply]
  simp only [v0_at]
  show Ideal.div (Ideal.ofBits .f32 0x00000000#32 + ∑ k : Fin 768, row x0 (i 0) (i 1) k) width = Ideal.div (∑ k : Fin 768, row x0 (i 0) (i 1) k) width
  rw [Ideal.ofBits_zero_f32, zero_add]

/-- The first difference is the centred feature. -/
theorem v6_at (i : S256x256x768.Idx) : val_main_v6 (F := Ideal) x0 i = centred (row x0 (i 0) (i 1)) (i 2) := by
  rw [val_main_v6_apply, val_main_v5_apply, v0_at, v4_at]
  rfl

/-- The second difference (the program subtracts the broadcast mean twice) is the centred feature again. -/
theorem v13_at (i : S256x256x768.Idx) : val_main_v13 (F := Ideal) x0 i = centred (row x0 (i 0) (i 1)) (i 2) := by
  rw [val_main_v13_apply, val_main_v12_apply, v0_at, v4_at]
  rfl

/-- The second quotient is the row's variance. -/
theorem v11_at (i : S256x256x1.Idx) : val_main_v11 (F := Ideal) x0 i = variance (row x0 (i 0) (i 1)) := by
  rw [val_main_v11_apply, val_main_v9_apply, val_main_v8_apply, val_main_v10_apply, val_main_cst_2_apply, val_main_cst_1_apply]
  simp only [val_main_v7_apply, v6_at]
  show Ideal.div (Ideal.ofBits .f32 0x00000000#32 + ∑ k : Fin 768, centred (row x0 (i 0) (i 1)) k * centred (row x0 (i 0) (i 1)) k) width
    = Ideal.div (∑ k : Fin 768, centred (row x0 (i 0) (i 1)) k * centred (row x0 (i 0) (i 1)) k) width
  rw [Ideal.ofBits_zero_f32, zero_add]

/-- The reciprocal square root is the row's scale. -/
theorem v16_at (i : S256x256x1.Idx) : val_main_v16 (F := Ideal) x0 i = scale (row x0 (i 0) (i 1)) := by
  rw [val_main_v16_apply, val_main_v15_apply, v11_at, val_main_v14_apply, val_main_cst_3_apply]
  rfl

/-- Where the twice-broadcast parameter vectors are read. -/
theorem idx_gamma (i : S256x256x768.Idx) : idx_main_v19 (idx_main_v20 i) = ix1 (i 2) :=
  funext fun a => by match a with | ⟨0, _⟩ => rfl
theorem idx_beta (i : S256x256x768.Idx) : idx_main_v22 (idx_main_v23 i) = ix1 (i 2) :=
  funext fun a => by match a with | ⟨0, _⟩ => rfl

/-- The affine layer-norm output is the normalized feature. -/
theorem v24_at (i : S256x256x768.Idx) :
    val_main_v24 (F := Ideal) x0 x1 x2 i = normed (row x0 (i 0) (i 1)) (feat x1) (feat x2) (i 2) := by
  rw [val_main_v24_apply, val_main_v21_apply, val_main_v18_apply, v13_at, val_main_v17_apply, v16_at, val_main_v20_apply,
    val_main_v19_apply, val_main_v23_apply, val_main_v22_apply, idx_gamma, idx_beta]
  rfl

/-- Where the weight row and the bias are read. -/
theorem idx_w (i : S256x256x1.Idx) (k : Fin 768) : ridx_main_v25 i k = ix2 0 k :=
  funext fun a => Fin.ext (by
    match a with
    | ⟨0, _⟩ => show (i 2).val = 0; have h : (i 2).val < 1 := (i 2).isLt; omega
    | ⟨1, _⟩ => rfl)
theorem idx_bias (i : S256x256x1.Idx) : idx_main_v26 (idx_main_v27 i) = ix1 0 :=
  funext fun a => by match a with | ⟨0, _⟩ => rfl

/-- The contraction plus the bias is the row's logit. -/
theorem v28_at (i : S256x256x1.Idx) :
    val_main_v28 (F := Ideal) x0 x1 x2 x3 x4 i = logit (row x0 (i 0) (i 1)) (feat x1) (feat x2) (wrow x3) (x4 (ix1 0)) := by
  rw [val_main_v28_apply, val_main_v25_apply, val_main_v27_apply, val_main_v26_apply, idx_bias]
  simp only [v24_at, idx_w]
  rfl

/-- THE REFERENCE'S RESULT is the head's result array. -/
theorem ref_result : val_main_v34 (F := Ideal) x0 x1 x2 x3 x4 = result x0 x1 x2 x3 x4 := by
  funext i
  rw [val_main_v34_apply, val_main_v33_apply, val_main_cst_5_apply, val_main_v32_apply, val_main_v31_apply, val_main_cst_4_apply,
    val_main_v30_apply, val_main_v29_apply, v28_at]
  show Ideal.div (Ideal.ofBits .f32 0x3F800000#32) (Ideal.ofBits .f32 0x3F800000#32
      + Ideal.exp (-(logit (row x0 (i 0) (i 1)) (feat x1) (feat x2) (wrow x3) (x4 (ix1 0)))))
    = Ideal.logistic (logit (row x0 (i 0) (i 1)) (feat x1) (feat x2) (wrow x3) (x4 (ix1 0)))
  rw [Ideal.ofBits_one_f32]
  rfl

end Cert.ReferenceIdeal.RefValue

end
-- ==== Proof.KernelRow.lean ====
/-
  One block of the kernel's grid computes the head for its eight batch entries, row by row.

  The body's single store writes `logistic (s + bias)`, where `s` is a lane sum over the 768 features. Read at the block
  index `(p, q, 0)`: the slice drops token 0, so row `(p, q)` is token `q + 1`; a lane sum over the last axis is the sum
  over the 768 features; a `[8, 256] → [8, 256, 1]` cast and a `[8, 256, 1] → [8, 256, 768]` broadcast move a per-row value
  to every feature of its row; a `[768] → [1, 1, 768] → [8, 256, 768]` cast and broadcast move a per-feature parameter to
  every row. With these readings each named stage of the body is the corresponding quantity of the row — mean, centred
  feature, scale, normalized feature, logit — and no law of arithmetic is needed.
-/
import proofs.«167712_j18846316495193_1_alg».proof.Proof.Gen.KernelIdeal.Skeleton
import proofs.«167712_j18846316495193_1_alg».proof.Proof.HeadSpec
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx Cert.Head

/-! ## The body's layout operations read at an index -/

section Layout
variable {α : Type}

/-- The slice that drops token 0, read at `(p, q, k)`: token `q + 1`. -/
theorem slice_at (P : S8x257x768.Idx → α) (p : Fin 8) (q : Fin 256) (k : Fin 768) :
    extractStridedSlice S8x256x768 ![0, 1, 0] P slices_S8x257x768_o0_1_0_S8x256x768 (ix3 p q k)
      = P (ix3 p ⟨q.val + 1, by have := q.isLt; omega⟩ k) :=
  extractStridedSlice_apply ![0, 1, 0] P slices_S8x257x768_o0_1_0_S8x256x768 (ix3 p q k) (ix3 p ⟨q.val + 1, by have := q.isLt; omega⟩ k)
    (fun a => match a with
      | ⟨0, _⟩ => by show p.val = 0 + p.val; omega
      | ⟨1, _⟩ => by show q.val + 1 = 1 + q.val; omega
      | ⟨2, _⟩ => by show k.val = 0 + k.val; omega)

/-- A per-row value cast to a column, read at `(p, q, 0)`. -/
theorem colcast_at (u : S8x256.Idx → α) (p : Fin 8) (q : Fin 256) (z : Fin 1) :
    shapeCast S8x256x1 u shapeCasts_S8x256_S8x256x1 (ix3 p q z) = u (ix2 p q) :=
  shapeCast_apply u shapeCasts_S8x256_S8x256x1 (ix3 p q z) (ix2 p q) (by
    rw [Shape.rowMajor_val_two, Shape.rowMajor_val_three]
    show p.val * 256 + q.val = (p.val * 256 + q.val) * 1 + z.val
    have := z.isLt; omega)

/-- A column broadcast along the features, read at `(p, q, k)`: the column's entry of row `(p, q)`. -/
theorem colbcast_at (u : S8x256x1.Idx → α) (p : Fin 8) (q : Fin 256) (k : Fin 768) :
    broadcastTo S8x256x768 u broadcasts_S8x256x1_S8x256x768 (ix3 p q k) = u (ix3 p q 0) :=
  broadcastTo_apply u broadcasts_S8x256x1_S8x256x768 (ix3 p q k) (ix3 p q 0) (fun a => match a with
    | ⟨0, _⟩ => by show p.val = if (8 : Nat) = 1 then 0 else p.val; rw [if_neg (by decide)]
    | ⟨1, _⟩ => by show q.val = if (256 : Nat) = 1 then 0 else q.val; rw [if_neg (by decide)]
    | ⟨2, _⟩ => by show 0 = if (1 : Nat) = 1 then 0 else k.val; rw [if_pos rfl])

/-- A per-feature vector broadcast to every row, read at `(p, q, k)`: its entry `k`. -/
theorem lanevec_at (g : S768.Idx → α) (p : Fin 8) (q : Fin 256) (k : Fin 768) :
    broadcastTo S8x256x768 (shapeCast S1x1x768 g shapeCasts_S768_S1x1x768) broadcasts_S1x1x768_S8x256x768 (ix3 p q k) = g (ix1 k) := by
  refine (broadcastTo_apply _ broadcasts_S1x1x768_S8x256x768 (ix3 p q k) (ix3 0 0 k) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show k.val = if (768 : Nat) = 1 then 0 else k.val; rw [if_neg (by decide)])).trans ?_
  exact shapeCast_apply g shapeCasts_S768_S1x1x768 (ix3 0 0 k) (ix1 k) (by
    rw [Shape.rowMajor_val_one, Shape.rowMajor_val_three]
    show k.val = (0 * 1 + 0) * 768 + k.val
    omega)

/-- The one-row weight matrix cast to a vector, read at `k`. -/
theorem wcast_at (W : S1x768.Idx → α) (k : Fin 768) : shapeCast S768 W shapeCasts_S1x768_S768 (ix1 k) = W (ix2 0 k) :=
  shapeCast_apply W shapeCasts_S1x768_S768 (ix1 k) (ix2 0 k) (by
    rw [Shape.rowMajor_val_two, Shape.rowMajor_val_one]
    show 0 * 768 + k.val = k.val
    omega)

/-- The bias broadcast to the whole column block, read anywhere: its one entry. -/
theorem bias_at (b : S1.Idx → α) (p : Fin 8) (q : Fin 256) (z : Fin 1) :
    broadcastTo S8x256x1 (shapeCast S1x1x1 b shapeCasts_S1_S1x1x1) broadcasts_S1x1x1_S8x256x1 (ix3 p q z) = b (ix1 0) := by
  refine (broadcastTo_apply _ broadcasts_S1x1x1_S8x256x1 (ix3 p q z) (ix3 0 0 0) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show 0 = if (1 : Nat) = 1 then 0 else z.val; rw [if_pos rfl])).trans ?_
  exact shapeCast_apply b shapeCasts_S1_S1x1x1 (ix3 0 0 0) (ix1 0) (by
    rw [Shape.rowMajor_val_one, Shape.rowMajor_val_three]
    show 0 = (0 * 1 + 0) * 1 + 0
    omega)

end Layout

/-- A lane sum over the features, read at row `(p, q)`: the sum over the 768 features. -/
theorem lanesum_at (v : FVec Ideal S8x256x768 .f32) (p : Fin 8) (q : Fin 256) :
    multiReduction .add [2] S8x256 v 0x00000000#32 reduces_S8x256x768_S8x256 (.inl rfl) rfl (ix2 p q)
      = ∑ k : Fin 768, v (ix3 p q k) := by
  refine (Ideal.multiReduction_add_single v 0x00000000#32 reduces_S8x256x768_S8x256 (.inl rfl) rfl (ix2 p q)).trans ?_
  refine Finset.sum_congr rfl fun k _ => congrArg v (funext fun a => Fin.ext ?_)
  match a with
  | ⟨0, _⟩ => rfl
  | ⟨1, _⟩ => rfl
  | ⟨2, _⟩ => rfl

/-! ## The body's stages -/

/-- The tokens kept: the block without token 0. -/
def toks (P0 : Vec Ideal S8x257x768 .f32) : FVec Ideal S8x256x768 .f32 :=
  extractStridedSlice S8x256x768 ![0, 1, 0] P0 slices_S8x257x768_o0_1_0_S8x256x768

/-- The sum over the features of each row, kept as a column. -/
def rowSum (v : FVec Ideal S8x256x768 .f32) : FVec Ideal S8x256x1 .f32 :=
  shapeCast S8x256x1 (multiReduction .add [2] S8x256 v 0x00000000#32 reduces_S8x256x768_S8x256 (.inl rfl) rfl) shapeCasts_S8x256_S8x256x1

/-- A column divided by the number of features. -/
def overWidth (u : FVec Ideal S8x256x1 .f32) : FVec Ideal S8x256x1 .f32 :=
  divf u (broadcast S8x256x1 (Scalar.ofBits .f32 0x44400000#32))

/-- A column spread along the features. -/
def spread (u : FVec Ideal S8x256x1 .f32) : FVec Ideal S8x256x768 .f32 :=
  broadcastTo S8x256x768 u broadcasts_S8x256x1_S8x256x768

/-- A per-feature vector spread over the rows. -/
def lanes (g : FVec Ideal S768 .f32) : FVec Ideal S8x256x768 .f32 :=
  broadcastTo S8x256x768 (shapeCast S1x1x768 g shapeCasts_S768_S1x1x768) broadcasts_S1x1x768_S8x256x768

/-- The centred block. -/
def cent (P0 : Vec Ideal S8x257x768 .f32) : FVec Ideal S8x256x768 .f32 :=
  subf (toks P0) (spread (overWidth (rowSum (toks P0))))

/-- The column of scales. -/
def scl (P0 : Vec Ideal S8x257x768 .f32) : FVec Ideal S8x256x1 .f32 :=
  rsqrt (addf (overWidth (rowSum (mulf (cent P0) (cent P0)))) (broadcast S8x256x1 (Scalar.ofBits .f32 0x3727C5AC#32)))

/-- The normalized, scaled and shifted block. -/
def nrm (P0 : Vec Ideal S8x257x768 .f32) (P1 P2 : Vec Ideal S768 .f32) : FVec Ideal S8x256x768 .f32 :=
  addf (mulf (mulf (cent P0) (spread (scl P0))) (lanes P1)) (lanes P2)

/-- The column of logits. -/
def lgt (P0 : Vec Ideal S8x257x768 .f32) (P1 P2 : Vec Ideal S768 .f32) (P3 : Vec Ideal S1x768 .f32) (P4 : Vec Ideal S1 .f32) :
    FVec Ideal S8x256x1 .f32 :=
  addf (rowSum (mulf (nrm P0 P1 P2) (lanes (shapeCast S768 P3 shapeCasts_S1x768_S768))))
    (broadcastTo S8x256x1 (shapeCast S1x1x1 P4 shapeCasts_S1_S1x1x1) broadcasts_S1x1x1_S8x256x1)

/-- The body's store writes the logistic function of the logits. -/
theorem pay_stages (P0 : Vec Ideal S8x257x768 .f32) (P1 P2 : Vec Ideal S768 .f32) (P3 : Vec Ideal S1x768 .f32) (P4 : Vec Ideal S1 .f32) :
    k0_pay1 (F := Ideal) P0 P1 P2 P3 P4 = logistic (lgt P0 P1 P2 P3 P4) := rfl

/-! ## Each stage at an index is the row's quantity -/

variable (P0 : Vec Ideal S8x257x768 .f32) (P1 P2 : Vec Ideal S768 .f32) (P3 : Vec Ideal S1x768 .f32) (P4 : Vec Ideal S1 .f32)

theorem toks_at (p : Fin 8) (q : Fin 256) (k : Fin 768) : toks P0 (ix3 p q k) = row P0 p q k :=
  slice_at P0 p q k

theorem rowSum_at (v : FVec Ideal S8x256x768 .f32) (p : Fin 8) (q : Fin 256) (z : Fin 1) :
    rowSum v (ix3 p q z) = ∑ k : Fin 768, v (ix3 p q k) :=
  (colcast_at _ p q z).trans (lanesum_at v p q)

theorem mean_at (p : Fin 8) (q : Fin 256) (z : Fin 1) : overWidth (rowSum (toks P0)) (ix3 p q z) = mean (row P0 p q) := by
  show Ideal.div (rowSum (toks P0) (ix3 p q z)) width = Ideal.div (∑ k : Fin 768, row P0 p q k) width
  rw [rowSum_at]
  simp only [toks_at]

theorem cent_at (p : Fin 8) (q : Fin 256) (k : Fin 768) : cent P0 (ix3 p q k) = centred (row P0 p q) k := by
  show toks P0 (ix3 p q k) - spread (overWidth (rowSum (toks P0))) (ix3 p q k) = row P0 p q k - mean (row P0 p q)
  rw [toks_at, show spread (overWidth (rowSum (toks P0))) (ix3 p q k) = overWidth (rowSum (toks P0)) (ix3 p q 0) from colbcast_at _ p q k,
    mean_at]

theorem scl_at (p : Fin 8) (q : Fin 256) (z : Fin 1) : scl P0 (ix3 p q z) = scale (row P0 p q) := by
  show Ideal.rsqrt (Ideal.div (rowSum (mulf (cent P0) (cent P0)) (ix3 p q z)) width + eps)
    = Ideal.rsqrt (Ideal.div (∑ k : Fin 768, centred (row P0 p q) k * centred (row P0 p q) k) width + eps)
  rw [rowSum_at]
  simp only [mulf_apply, cent_at]

theorem nrm_at (p : Fin 8) (q : Fin 256) (k : Fin 768) :
    nrm P0 P1 P2 (ix3 p q k) = normed (row P0 p q) (feat P1) (feat P2) k := by
  show cent P0 (ix3 p q k) * spread (scl P0) (ix3 p q k) * lanes P1 (ix3 p q k) + lanes P2 (ix3 p q k)
    = centred (row P0 p q) k * scale (row P0 p q) * P1 (ix1 k) + P2 (ix1 k)
  rw [cent_at, show spread (scl P0) (ix3 p q k) = scl P0 (ix3 p q 0) from colbcast_at _ p q k, scl_at,
    show lanes P1 (ix3 p q k) = P1 (ix1 k) from lanevec_at P1 p q k,
    show lanes P2 (ix3 p q k) = P2 (ix1 k) from lanevec_at P2 p q k]

theorem lgt_at (p : Fin 8) (q : Fin 256) (z : Fin 1) :
    lgt P0 P1 P2 P3 P4 (ix3 p q z) = logit (row P0 p q) (feat P1) (feat P2) (wrow P3) (P4 (ix1 0)) := by
  show rowSum (mulf (nrm P0 P1 P2) (lanes (shapeCast S768 P3 shapeCasts_S1x768_S768))) (ix3 p q z)
      + broadcastTo S8x256x1 (shapeCast S1x1x1 P4 shapeCasts_S1_S1x1x1) broadcasts_S1x1x1_S8x256x1 (ix3 p q z)
    = (∑ k : Fin 768, normed (row P0 p q) (feat P1) (feat P2) k * P3 (ix2 0 k)) + P4 (ix1 0)
  rw [rowSum_at, bias_at]
  refine congrArg (· + P4 (ix1 0)) (Finset.sum_congr rfl fun k _ => ?_)
  show nrm P0 P1 P2 (ix3 p q k) * lanes (shapeCast S768 P3 shapeCasts_S1x768_S768) (ix3 p q k) = _
  rw [nrm_at, show lanes (shapeCast S768 P3 shapeCasts_S1x768_S768) (ix3 p q k) = shapeCast S768 P3 shapeCasts_S1x768_S768 (ix1 k) from lanevec_at _ p q k,
    wcast_at]

/-- WHAT THE BODY STORES, index by index: the head's result for the block's eight batch entries. -/
theorem pay_at (y : S8x256x1.Idx) : k0_pay1 (F := Ideal) P0 P1 P2 P3 P4 y = result P0 P1 P2 P3 P4 y := by
  obtain ⟨p, q, z, rfl⟩ : ∃ (p : Fin 8) (q : Fin 256) (z : Fin 1), y = ix3 p q z := ⟨y 0, y 1, y 2, eq_ix3 y⟩
  rw [pay_stages]
  show Ideal.logistic (lgt P0 P1 P2 P3 P4 (ix3 p q z)) = Ideal.logistic (logit (row P0 p q) (feat P1) (feat P2) (wrow P3) (P4 (ix1 0)))
  rw [lgt_at]

end Cert.KernelIdeal.RowValue

end
-- ==== Proof.KernelValue.lean ====
/-
  From the blocks to the whole array: after the kernel's run the result array holds the head's result.

  Grid point `t` (of 32) stages batch entries `8t … 8t + 7` of the input — all 257 tokens, all 768 features — and the
  whole of every parameter array, and writes back rows `8t … 8t + 7` of the result. What it writes back is the head's
  result of its blocks, which is the block of the head's result of the whole arrays, because an entry depends only on its
  own row of the input. The 32 blocks tile the result array, so the array ends holding the head's result everywhere.
-/
import proofs.«167712_j18846316495193_1_alg».proof.Proof.Gen.KernelIdeal.Frame
import proofs.«167712_j18846316495193_1_alg».proof.Proof.KernelRow
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output block, from the input blocks: the head's result of them (the body loads each
    block whole and stores the whole output block once). -/
theorem out_result (x0 : Vec Ideal S8x257x768 .f32) (x1 x2 : Vec Ideal S768 .f32) (x3 : Vec Ideal S1x768 .f32) (x4 : Vec Ideal S1 .f32) :
    out0_5 (F := Ideal) x0 x1 x2 x3 x4 = result x0 x1 x2 x3 x4 := by
  unfold out0_5
  rw [View.canon_unit_zero hz3]
  simp only [View.ld_unit_zero (S := S8x257x768) hz3, View.ld_unit_zero (S := S768) hz1, View.ld_unit_zero (S := S1x768) hz2,
    View.ld_unit_zero (S := S1) hz1]
  exact funext fun y => RowValue.pay_at x0 x1 x2 x3 x4 y

/-- The head's result of the argument arrays as the region finds them. -/
abbrev whole (c : Dev nD) : S256x256x1.Idx → EReal :=
  result (V m c main_arg0) (V m c main_arg1) (V m c main_arg2) (V m c main_arg3) (V m c main_arg4)

/-- The printed index maps, decided over the 32 grid points: the input's and the result's blocks move together along the
    batch axis and sit at block 0 on the other axes; every parameter block is block 0. -/
theorem idx_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Every block of eight batch entries is some grid point's. -/
theorem idx_onto : ∀ q0 : Fin 32, ∃ t : Fin cfg0.N, win0_5.index t = ![q0.val, 0, 0] :=
  (by decide +kernel : ∀ q0 : Fin 32, ∃ t : Fin grid0.N, win0_5.index t = ![q0.val, 0, 0])

/-- WHAT POINT `t` WRITES BACK is block `t` of the head's result of the whole argument arrays. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5, out_result]
  obtain ⟨e00, e01, e02, e51, e52, e1, e2, e30, e31, e4⟩ := idx_facts t
  funext j
  refine result_congr _ _ _ _ _ _ _ _ _ _ _ _ (fun k => ?_) (fun k => ?_) (fun k => ?_) (fun k => ?_) ?_
  · refine congrArg (V m c main_arg0) (funext fun a => Fin.ext ?_)
    match a with
    | ⟨0, _⟩ => show win0_0.index t (0 : Fin 3) * 8 + 1 * (j 0).val = win0_5.index t (0 : Fin 3) * 8 + 1 * (j 0).val; omega
    | ⟨1, _⟩ => show win0_0.index t (1 : Fin 3) * 257 + 1 * ((j 1).val + 1) = (win0_5.index t (1 : Fin 3) * 256 + 1 * (j 1).val) + 1; omega
    | ⟨2, _⟩ => show win0_0.index t (2 : Fin 3) * 768 + 1 * k.val = k.val; omega
  · refine congrArg (V m c main_arg1) (funext fun a => Fin.ext ?_)
    match a with
    | ⟨0, _⟩ => show win0_1.index t (0 : Fin 1) * 768 + 1 * k.val = k.val; omega
  · refine congrArg (V m c main_arg2) (funext fun a => Fin.ext ?_)
    match a with
    | ⟨0, _⟩ => show win0_2.index t (0 : Fin 1) * 768 + 1 * k.val = k.val; omega
  · refine congrArg (V m c main_arg3) (funext fun a => Fin.ext ?_)
    match a with
    | ⟨0, _⟩ => show win0_3.index t (0 : Fin 2) * 1 + 1 * 0 = 0; omega
    | ⟨1, _⟩ => show win0_3.index t (1 : Fin 2) * 768 + 1 * k.val = k.val; omega
  · refine congrArg (V m c main_arg4) (funext fun a => Fin.ext ?_)
    match a with
    | ⟨0, _⟩ => show win0_4.index t (0 : Fin 1) * 1 + 1 * 0 = 0; omega

/-- An index of the result array is in point `t`'s block iff each coordinate is in the block's range on its axis. -/
theorem mem_blk (t : Fin cfg0.N) (i : S256x256x1.Idx) :
    i ∈ ((cfg0.win 5).blk t).view.set ↔ ∀ a : Fin 3, win0_5.index t a * S8x256x1.size a ≤ (i a).val ∧ (i a).val < win0_5.index t a * S8x256x1.size a + S8x256x1.size a := by
  show i ∈ ((View.whole main_v0).slice (win0_5.rect t)).set ↔ _
  rw [View.set_slice_whole, Rect.mem_set_unit]
  exact Iff.rfl

/-- The blocks tile the result array: row `(b, r)` is in the block of point `b / 8`. -/
theorem cover (i : S256x256x1.Idx) : ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 1 := (i 2).isLt
  obtain ⟨t, ht⟩ := idx_onto ⟨(i 0).val / 8, by omega⟩
  have q0 : win0_5.index t (0 : Fin 3) = (i 0).val / 8 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 256 ≤ (i 1).val ∧ (i 1).val < win0_5.index t (1 : Fin 3) * 256 + 256; omega
  | ⟨2, _⟩ => show win0_5.index t (2 : Fin 3) * 1 ≤ (i 2).val ∧ (i 2).val < win0_5.index t (2 : Fin 3) * 1 + 1; omega

/-- THE RESULT ARRAY after the run is the head's result of the argument arrays. -/
theorem final (c : Dev nD) : (dats m 0 c).arrAt 5 cfg0.N = whole m c :=
  (dats m 0 c).arrAt_eq_of_cover 5 (whole m c) (fun t _ => flushed_eq m c t) cover

/-! ## The run, read -/

/-- After the frame run the result array is the proof data's final array of output window 5. -/
theorem post_out (r : PUnit × MemSt nD τ sig (Elt Ideal)) (h : Pipeline.FramePost cfgs (dats m) 0 (V m) r) (c : Dev nD) :
    r.2.mem ((c : Thread nD τ).loc main_v0) = (dats m 0 c).arrAt 5 cfg0.N :=
  (h c).1 5

/-- After the frame run each argument array is as launched: its window stages it and never writes it back. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- THE KERNEL'S RUN: every weakly fair execution terminates with the result array at the head's result of the argument
    arrays as launched, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post_out m r h c).trans (final m c),
      kept0 m r h c, kept1 m r h c, kept2 m r h c, kept3 m r h c, kept4 m r h c⟩)
    (run_main m ρ)

end Cert.KernelIdeal.BlockValue

end
-- ==== Proof.lean ====
/-
  The classification head: LayerNorm over the 768 features of every token but the first, a linear map to one
  logit, and the logistic function — the fused kernel against its jnp reference, over the extended reals.

  Both idealized programs compute, for batch entry `b` and kept token `r`, the same number
  `logistic (∑ₖ (((xₖ − μ) · ρ) · γₖ + βₖ) · wₖ + bias)`, where `x` is row `(b, r + 1)` of the input, `μ = (∑ₖ xₖ) / 768`,
  `ρ = rsqrt ((∑ₖ (xₖ − μ)²) / 768 + ε)` (Proof/HeadSpec.lean). The reference reaches it through forty-two host
  operations read one stage at a time (Proof/RefValue.lean: its two sums start from the constant zero, its contraction
  is a `dot_general`, its logistic function is spelt `1 / (1 + exp (−z))`); the kernel computes it block by block, eight
  batch entries per grid point (Proof/KernelRow.lean: the body's one store at an index; Proof/KernelValue.lean: the 32
  blocks tile the result array). The two sides are the same expression term by term — the only arithmetic is
  `0 + s = s` and that the pattern `0x3F800000` is the number one — so the precondition (finite inputs) is not used.
  The three frames are the generated frame runs; the idealization rewrote nothing, so `preserves` is `True`.
-/
import proofs.«167712_j18846316495193_1_alg».proof.Defs
import proofs.«167712_j18846316495193_1_alg».proof.Proof.Gen.Kernel
import proofs.«167712_j18846316495193_1_alg».proof.Proof.Gen.Kernel.Skeleton
import proofs.«167712_j18846316495193_1_alg».proof.Proof.Gen.Kernel.Launch
import proofs.«167712_j18846316495193_1_alg».proof.Proof.Gen.Kernel.Points
import proofs.«167712_j18846316495193_1_alg».proof.Proof.Gen.Kernel.Frame
import proofs.«167712_j18846316495193_1_alg».proof.Proof.Gen.KernelIdeal
import proofs.«167712_j18846316495193_1_alg».proof.Proof.Gen.KernelIdeal.Skeleton
import proofs.«167712_j18846316495193_1_alg».proof.Proof.Gen.KernelIdeal.Launch
import proofs.«167712_j18846316495193_1_alg».proof.Proof.Gen.KernelIdeal.Points
import proofs.«167712_j18846316495193_1_alg».proof.Proof.Gen.KernelIdeal.Frame
import proofs.«167712_j18846316495193_1_alg».proof.Proof.Gen.ReferenceIdeal
import proofs.«167712_j18846316495193_1_alg».proof.Proof.Gen.Pre_finite_inputs
import proofs.«167712_j18846316495193_1_alg».proof.Proof.Gen.ReferenceIdeal.Run
import proofs.«167712_j18846316495193_1_alg».proof.Proof.Gen.ReferenceIdeal.Read
import proofs.«167712_j18846316495193_1_alg».proof.Proof.RefValue
import proofs.«167712_j18846316495193_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the kernel's result array ends at the head's result of its arguments
    (Proof/KernelValue.lean) and the reference's result at the head's result of its own (Proof/RefValue.lean):
    the same array. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.ref_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
